-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x7x7x2048 : Shape := ⟨4, ![512, 7, 7, 2048]⟩
abbrev S2048x8192 : Shape := ⟨2, ![2048, 8192]⟩
abbrev S8192 : Shape := ⟨1, ![8192]⟩
abbrev S_ : Shape := ⟨0, ![]⟩

class Facts : Prop where
  bcast_S_S512x7x7x2048 : S_.BroadcastsInDim S512x7x7x2048 (![] : Fin 0 → Fin S512x7x7x2048.rank)
  reducesTo_S512x7x7x2048_S_d0_1_2_3 : S512x7x7x2048.ReducesTo [0, 1, 2, 3] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x7x7x2048 .f32) (main_arg1 : FVec F S2048x8192 .f32) (main_arg2 : FVec F S8192 .f32) : IVec S_ 1 :=
  let main_v0 : FVec F S512x7x7x2048 .f32 := Host.absf main_arg0
  let main_cst : FVec F S_ .f32 := constant S_ .f32 0x7F800000#32
  let main_v1 : FVec F S512x7x7x2048 .f32 := broadcastInDim S512x7x7x2048 ![] bcast_S_S512x7x7x2048 main_cst
  let main_v2 : IVec S512x7x7x2048 1 := cmpf .olt main_v0 main_v1
  let main_c : IVec S_ 1 := constantI S_ 1 1#1
  let main_v3 : IVec S_ 1 := (fun x v => Host.reduce IntOp.andi x v reducesTo_S512x7x7x2048_S_d0_1_2_3 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S512x7x7x2048 : Shape := ⟨4, ![512, 7, 7, 2048]⟩
abbrev S2048x8192 : Shape := ⟨2, ![2048, 8192]⟩
abbrev S8192 : Shape := ⟨1, ![8192]⟩
abbrev S512x49x2048 : Shape := ⟨3, ![512, 49, 2048]⟩
abbrev S512x2048 : Shape := ⟨2, ![512, 2048]⟩
abbrev S32x49x2048 : Shape := ⟨3, ![32, 49, 2048]⟩
abbrev S32x2048 : Shape := ⟨2, ![32, 2048]⟩
abbrev S1x8192 : Shape := ⟨2, ![1, 8192]⟩
abbrev S512x8192 : Shape := ⟨2, ![512, 8192]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S512x7x7x2048, .f32⟩
  | .hbm, ⟨1, _⟩ => ⟨S2048x8192, .f32⟩
  | .hbm, ⟨2, _⟩ => ⟨S8192, .f32⟩
  | .hbm, ⟨3, _⟩ => ⟨S512x49x2048, .f32⟩
  | .hbm, ⟨4, _⟩ => ⟨S512x2048, .f32⟩
  | .hbm, ⟨5, _⟩ => ⟨S1x8192, .f32⟩
  | .hbm, ⟨6, _⟩ => ⟨S512x8192, .f32⟩
  | .local _ .vmem, ⟨0, _⟩ => ⟨S32x49x2048, .f32⟩
  | .local _ .vmem, ⟨1, _⟩ => ⟨S32x49x2048, .f32⟩
  | .local _ .vmem, ⟨2, _⟩ => ⟨S32x2048, .f32⟩
  | .local _ .vmem, ⟨3, _⟩ => ⟨S32x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .f32⟩
  | .local _ .vmem, ⟨7, _⟩ => ⟨S2048x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S512x7x7x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x49x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S512x7x7x2048_S512x49x2048 : S512x7x7x2048.ShapeCasts S512x49x2048
  inb_S32x49x2048_S32x49x2048_0_0_0 : ∀ a, (![0, 0, 0] : Fin 3 → Nat) a + S32x49x2048.size a ≤ S32x49x2048.size a
  h_S32x49x2048 : 0 < S32x49x2048.numel
  shapeCasts_S32x49x2048_S32x49x2048 : S32x49x2048.ShapeCasts S32x49x2048
  reduces_S32x49x2048_S32x2048 : S32x49x2048.Reduces [1] S32x2048
  inb_S32x2048_S32x2048_0_0 : ∀ a, (![0, 0] : Fin 2 → Nat) a + S32x2048.size a ≤ S32x2048.size a
  h_S32x2048 : 0 < S32x2048.numel
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x2048.size a ≤ S512x49x2048.size a
  hwx0_0 : ∀ i : grid0.Coords, EltTy.bits .f32 = 32 ∨ (Rect.block (s := S512x49x2048) S32x49x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S512x2048.size a
  hwx0_1 : ∀ i : grid0.Coords, EltTy.bits .f32 = 32 ∨ (Rect.block (s := S512x2048) S32x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S512x2048.size a
  hwx1_0 : ∀ i : grid1.Coords, EltTy.bits .f32 = 32 ∨ (Rect.block (s := S512x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x8192.size a
  hwx1_1 : ∀ i : grid1.Coords, EltTy.bits .f32 = 32 ∨ (Rect.block (s := S2048x8192) S2048x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S512x8192.size a
  hwx1_3 : ∀ i : grid1.Coords, EltTy.bits .f32 = 32 ∨ (Rect.block (s := S512x8192) S256x2048.size (cc1_transform_3 i) (hinb1_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S32x49x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x7x7x2048 : Shape := ⟨4, ![512, 7, 7, 2048]⟩
abbrev S2048x8192 : Shape := ⟨2, ![2048, 8192]⟩
abbrev S8192 : Shape := ⟨1, ![8192]⟩
abbrev S_ : Shape := ⟨0, ![]⟩
abbrev S512x2048 : Shape := ⟨2, ![512, 2048]⟩
abbrev S512x8192 : Shape := ⟨2, ![512, 8192]⟩
abbrev S1x8192 : Shape := ⟨2, ![1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S512x7x7x2048, .f32⟩
  | .hbm, ⟨1, _⟩ => ⟨S2048x8192, .f32⟩
  | .hbm, ⟨2, _⟩ => ⟨S8192, .f32⟩
  | .hbm, ⟨3, _⟩ => ⟨S_, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S512x8192, .f32⟩
  | .hbm, ⟨9, _⟩ => ⟨S1x8192, .f32⟩
  | .hbm, ⟨10, _⟩ => ⟨S512x8192, .f32⟩
  | .hbm, ⟨11, _⟩ => ⟨S512x8192, .f32⟩
  | _, _ => ⟨S512x7x7x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S512x7x7x2048_S512x2048_d1_2 : S512x7x7x2048.ReducesTo [1, 2] S512x2048
  h_S_ : 0 < S_.numel
  bcast_S_S512x2048 : S_.BroadcastsInDim S512x2048 (![] : Fin 0 → Fin S512x2048.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  dot_S512x2048_S2048x8192_S512x8192_1_0_0_1_n_n_wf : DotDims.WF S512x2048 S2048x8192 S512x8192 [1] [0] [0] [1] [] []

variable [Facts₀]

def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf

class Facts : Prop extends Facts₀ where

variable [Facts]
-- ==== Proof.LibSpatialMean.lean ====
/-
  Two spatial axes read as one flattened axis, over the extended reals.

  An array `[a, b, c, d]` and its row-major flattening `[a, b·c, d]` hold the same numbers: position
  `p < b·c` of the flattened axis is the pair `(p / c, p % c)`. A sum over the two spatial axes at a fixed
  `(n, e)` — the host's reduction over axes 1 and 2 — is therefore the sum over `p` of the entries
  `(n, p / c, p % c, e)`: the map `(h, w) ↦ h·c + w` is a bijection from the index pairs onto `Fin (b·c)`,
  and a finite sum in a commutative monoid does not depend on the order of its terms. Also here: the
  source index of a reduction over the MIDDLE axis of a rank-3 array, and a vector recast as a one-row matrix.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.SpatialMean

/-- The quotient of a flattened position by the inner extent is a valid outer coordinate. -/
theorem div_lt {b c : ℕ} (p : Fin (b * c)) : p.val / c < b :=
  Nat.div_lt_of_lt_mul (Nat.lt_of_lt_of_eq p.isLt (Nat.mul_comm b c))

/-- The remainder is a valid inner coordinate (the inner extent is positive as soon as a position exists). -/
theorem mod_lt {b c : ℕ} (p : Fin (b * c)) : p.val % c < c :=
  Nat.mod_lt _ (Nat.pos_of_ne_zero fun h => Nat.not_lt_zero _ (Nat.lt_of_lt_of_eq p.isLt (by rw [h, Nat.mul_zero])))

/-- A pair of coordinates flattens to a valid position. -/
theorem flat_lt {b c x y : ℕ} (hx : x < b) (hy : y < c) : x * c + y < b * c :=
  Nat.lt_of_lt_of_le (Nat.add_lt_add_left hy _) (by rw [← Nat.succ_mul]; exact Nat.mul_le_mul_right c hx)

/-- The entry `(n, p / c, p % c, e)` of a rank-4 array: position `p` of its two middle axes flattened. -/
abbrev unflat {a b c d : ℕ} (n : Fin a) (p : Fin (b * c)) (e : Fin d) : (⟨4, ![a, b, c, d]⟩ : Shape).Idx :=
  ix4 n (⟨p.val / c, div_lt p⟩ : Fin b) (⟨p.val % c, mod_lt p⟩ : Fin c) e

variable {α : Type}

/-- The flattening `[a, b, c, d] → [a, b·c, d]` read at `(n, p, e)` is the array at `(n, p / c, p % c, e)`. -/
theorem flatten_apply {a b c d : ℕ} (x : (⟨4, ![a, b, c, d]⟩ : Shape).Idx → α)
    (h : (⟨4, ![a, b, c, d]⟩ : Shape).ShapeCasts ⟨3, ![a, b * c, d]⟩) (n : Fin a) (p : Fin (b * c)) (e : Fin d) :
    shapeCast ⟨3, ![a, b * c, d]⟩ x h (ix3 n p e) = x (unflat n p e) :=
  shapeCast_apply x h (ix3 n p e) (unflat n p e) (by
    rw [Shape.rowMajor_val_four, Shape.rowMajor_val_three]
    show ((n.val * b + p.val / c) * c + p.val % c) * d + e.val = (n.val * (b * c) + p.val) * d + e.val
    have key : (n.val * b + p.val / c) * c + p.val % c = n.val * (b * c) + p.val := by
      rw [Nat.add_mul, Nat.add_assoc, Nat.div_add_mod', Nat.mul_assoc]
    rw [key])

/-- A vector `[n]` recast as the one-row matrix `[1, n]`, read at `(0, c)`, is the vector at `c`. -/
theorem cast_row {n : ℕ} (v : (⟨1, ![n]⟩ : Shape).Idx → α) (h : (⟨1, ![n]⟩ : Shape).ShapeCasts ⟨2, ![1, n]⟩) (c : Fin n) :
    shapeCast ⟨2, ![1, n]⟩ v h (ix2 0 c) = v (ix1 c) :=
  shapeCast_apply v h (ix2 0 c) (ix1 c) (by
    rw [Shape.rowMajor_val_one, Shape.rowMajor_val_two]; show c.val = 0 * n + c.val; omega)

/-- Entry `(r, c)` of an `[m, k, n]` array reduced over its middle axis, with the middle coordinate `j` put
    back, is the source index `(r, j, c)`. -/
theorem lift_middle {m k n : ℕ} (h : (⟨3, ![m, k, n]⟩ : Shape).Reduces [1] (⟨2, ![m, n]⟩ : Shape)) (r : Fin m) (c : Fin n)
    (j : Fin ((⟨3, ![m, k, n]⟩ : Shape).size 1)) : h.lift (ix2 r c) j = ix3 r (⟨j.val, j.isLt⟩ : Fin k) c := by
  funext q; apply Fin.ext
  fin_cases q <;> rfl

/-- The host's sum over the two middle axes of an `[a, b, c, d]` array, read at `(n, e)`: the initial value plus
    the sum over the flattened positions `p < b·c` of the entries `(n, p / c, p % c, e)`. -/
theorem hostSum_middle_apply {a b c d : ℕ} (h : (⟨4, ![a, b, c, d]⟩ : Shape).ReducesTo [1, 2] (⟨2, ![a, d]⟩ : Shape))
    (x : (⟨4, ![a, b, c, d]⟩ : Shape).Idx → EReal) (init : EReal) (n : Fin a) (e : Fin d) :
    Ideal.hostReduceAdd h x init (ix2 n e) = init + ∑ p : Fin (b * c), x (unflat n p e) := by
  unfold Ideal.hostReduceAdd
  refine congrArg (init + ·) ?_
  refine Finset.sum_nbij'
    (fun i => (⟨(i 1).val * c + (i 2).val, flat_lt (i 1).isLt (i 2).isLt⟩ : Fin (b * c)))
    (fun p => unflat n p e) (fun _ _ => Finset.mem_univ _) ?_ ?_ ?_ ?_
  · intro p _
    refine Finset.mem_filter.mpr ⟨Finset.mem_univ _, ?_⟩
    funext q; apply Fin.ext
    fin_cases q <;> rfl
  · intro i hi
    have hd : h.drop i = ix2 n e := (Finset.mem_filter.mp hi).2
    have h0 : (i 0).val = n.val := congrArg (fun z : (⟨2, ![a, d]⟩ : Shape).Idx => (z 0).val) hd
    have h3 : (i 3).val = e.val := congrArg (fun z : (⟨2, ![a, d]⟩ : Shape).Idx => (z 1).val) hd
    have h2 : (i 2).val < c := (i 2).isLt
    have hc : 0 < c := Nat.lt_of_le_of_lt (Nat.zero_le _) h2
    funext q; apply Fin.ext
    match q with
    | ⟨0, _⟩ => exact h0.symm
    | ⟨1, _⟩ =>
      show ((i 1).val * c + (i 2).val) / c = (i 1).val
      rw [Nat.add_comm, Nat.add_mul_div_right _ _ hc, Nat.div_eq_of_lt h2, Nat.zero_add]
    | ⟨2, _⟩ =>
      show ((i 1).val * c + (i 2).val) % c = (i 2).val
      rw [Nat.add_comm, Nat.add_mul_mod_self_right, Nat.mod_eq_of_lt h2]
    | ⟨3, _⟩ => exact h3.symm
  · intro p _
    apply Fin.ext
    show p.val / c * c + p.val % c = p.val
    exact Nat.div_add_mod' _ _
  · intro i hi
    have hd : h.drop i = ix2 n e := (Finset.mem_filter.mp hi).2
    have h0 : (i 0).val = n.val := congrArg (fun z : (⟨2, ![a, d]⟩ : Shape).Idx => (z 0).val) hd
    have h3 : (i 3).val = e.val := congrArg (fun z : (⟨2, ![a, d]⟩ : Shape).Idx => (z 1).val) hd
    have h2 : (i 2).val < c := (i 2).isLt
    have hc : 0 < c := Nat.lt_of_le_of_lt (Nat.zero_le _) h2
    refine congrArg x ?_
    funext q; apply Fin.ext
    match q with
    | ⟨0, _⟩ => exact h0
    | ⟨1, _⟩ =>
      show (i 1).val = ((i 1).val * c + (i 2).val) / c
      rw [Nat.add_comm, Nat.add_mul_div_right _ _ hc, Nat.div_eq_of_lt h2, Nat.zero_add]
    | ⟨2, _⟩ =>
      show (i 2).val = ((i 1).val * c + (i 2).val) % c
      rw [Nat.add_comm, Nat.add_mul_mod_self_right, Nat.mod_eq_of_lt h2]
    | ⟨3, _⟩ => exact h3

end Cert.SpatialMean

end
-- ==== Proof.Spec.lean ====
/-
  The function both programs compute: global average pooling followed by a linear layer.

  For an input `x : [512, 7, 7, 2048]`, a weight `w : [2048, 8192]` and a bias `b : [8192]`,

      y (n, k) = Σ_c mean (n, c) · w (c, k) + b (k),    mean (n, c) = (Σ_{p < 49} x (n, p / 7, p % 7, c)) / 49,

  over the extended reals, the divisor kept as the f32 word of `49.0` (both programs divide by that same
  word, so its value is never needed). The 49 spatial positions are enumerated row-major, `p = 7·h + w`.
-/
import Idealize.ShloMosaic.PureOps.Ideal
import Idealize.ShloMosaic.Lib.ValueIdx
import proofs.«141241_j33921651704511_2_alg».proof.Proof.LibSpatialMean

noncomputable section

open Idealize.ShloMosaic Idealize.ShloMosaic.ValueIdx

namespace Cert.PoolLinear

/-- The mean of `x (n, ·, ·, c)` over the 49 spatial positions. -/
def spatialMean (x : (⟨4, ![512, 7, 7, 2048]⟩ : Shape).Idx → EReal) (n : Fin 512) (c : Fin 2048) : EReal :=
  Ideal.div (∑ p : Fin 49, x (Cert.SpatialMean.unflat (b := 7) (c := 7) n p c)) (Ideal.ofBits .f32 0x42440000#32)

/-- Entry `(n, k)` of the pooled features times the weight, plus the bias. -/
def poolLinear (x : (⟨4, ![512, 7, 7, 2048]⟩ : Shape).Idx → EReal) (w : (⟨2, ![2048, 8192]⟩ : Shape).Idx → EReal)
    (b : (⟨1, ![8192]⟩ : Shape).Idx → EReal) : (⟨2, ![512, 8192]⟩ : Shape).Idx → EReal :=
  fun i => (∑ c : Fin 2048, spatialMean x (i 0) c * w (ix2 c (i 1))) + b (ix1 (i 1))

theorem poolLinear_apply (x : (⟨4, ![512, 7, 7, 2048]⟩ : Shape).Idx → EReal) (w : (⟨2, ![2048, 8192]⟩ : Shape).Idx → EReal)
    (b : (⟨1, ![8192]⟩ : Shape).Idx → EReal) (n : Fin 512) (k : Fin 8192) :
    poolLinear x w b (ix2 n k) = (∑ c : Fin 2048, spatialMean x n c * w (ix2 c k)) + b (ix1 k) := rfl

end Cert.PoolLinear

end
-- ==== Proof.Reference.lean ====
/-
  The reference computes `poolLinear`.

  Its sum over the two spatial axes at `(n, c)` is the zero it starts from plus the sum of the entries
  `x (n, h, w, c)`, which re-indexed by `p = 7·h + w` is the 49-term sum of the specification; the quotient by
  the word of `49.0`, the matrix product as a sum over the 2048 channels, and the bias repeated down the rows
  are read entry by entry.
-/
import proofs.«141241_j33921651704511_2_alg».proof.Proof.Gen.ReferenceIdeal.Read
import proofs.«141241_j33921651704511_2_alg».proof.Proof.Spec

noncomputable section

open Idealize.ShloMosaic Idealize.ShloMosaic.ValueIdx

namespace Cert.PoolLinear.Reference

open Cert.ReferenceIdeal Cert.ReferenceIdeal.Read

/-- The reference's pooled feature at `(n, c)` is the spatial mean. -/
theorem pooled_apply (x : (⟨S512x7x7x2048, .f32⟩ : BufTy).Contents (Elt Ideal)) (n : Fin 512) (c : Fin 2048) :
    val_main_v2 (F := Ideal) x (ix2 n c) = spatialMean x n c := by
  rw [val_main_v2_apply, val_main_v1_apply, val_main_cst_0_apply]
  unfold val_main_v0 Host.reduceAdd spatialMean
  rw [Ideal.hostReduceAdd_def, Ideal.hostDivf_def, Ideal.ofBits_def]
  refine congrArg (fun z => Ideal.div z _) ?_
  refine (Cert.SpatialMean.hostSum_middle_apply _ x _ n c).trans ?_
  rw [val_main_cst_apply, Ideal.ofBits_def, Ideal.ofBits_zero_f32, zero_add]

/-- The reference's result, as the generated reading states it, is `poolLinear` of the three arguments. -/
theorem result_eq (x : (⟨S512x7x7x2048, .f32⟩ : BufTy).Contents (Elt Ideal)) (w : (⟨S2048x8192, .f32⟩ : BufTy).Contents (Elt Ideal))
    (b : (⟨S8192, .f32⟩ : BufTy).Contents (Elt Ideal)) :
    val_main_v6 (F := Ideal) x w b = poolLinear x w b := by
  funext i
  obtain ⟨n, k, rfl⟩ : ∃ (n : Fin 512) (k : Fin 8192), i = ix2 n k := ⟨i 0, i 1, eq_ix2 i⟩
  have el : ∀ c : Fin 2048, lidx_main_v3 (ix2 n k) c = ix2 n c := fun c =>
    funext fun a => Fin.ext (by match a with | ⟨0, _⟩ => rfl | ⟨1, _⟩ => rfl)
  have er : ∀ c : Fin 2048, ridx_main_v3 (ix2 n k) c = ix2 c k := fun c =>
    funext fun a => Fin.ext (by match a with | ⟨0, _⟩ => rfl | ⟨1, _⟩ => rfl)
  have eb : idx_main_v4 (idx_main_v5 (ix2 n k)) = ix1 k :=
    funext fun a => Fin.ext (by match a with | ⟨0, _⟩ => rfl)
  rw [val_main_v6_apply, val_main_v3_apply, val_main_v5_apply, val_main_v4_apply, poolLinear_apply, Ideal.addf_def, eb]
  refine congrArg (· + b (ix1 k)) (Finset.sum_congr rfl fun c _ => ?_)
  rw [el, er, pooled_apply]

end Cert.PoolLinear.Reference

end
-- ==== Proof.PoolBody.lean ====
/-
  The pooling kernel's body at one entry.

  From a loaded block `v : [32, 49, 2048]` the body stores, at `(r, c)`, the sum over the 49 middle
  positions of `v (r, ·, c)` divided by the word of `49.0`: the lane reduction over the middle axis read
  as a `Fin 49`-indexed sum, the identity recast dropped, the splat divisor read at the entry.
-/
import proofs.«141241_j33921651704511_2_alg».proof.Proof.Gen.KernelIdeal.Skeleton
import proofs.«141241_j33921651704511_2_alg».proof.Proof.LibSpatialMean
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.PoolLinear.PoolBody

open Cert.KernelIdeal Cert.KernelIdeal.Gen

/-- A sum-reduction of a `[32, 49, 2048]` block over its middle axis, started from the zero word, at `(r, c)`. -/
theorem middle_sum_apply (src : FVec Ideal S32x49x2048 .f32) (h : S32x49x2048.Reduces [1] S32x2048)
    (hφ : FKind.Formats .f32) (hacc : (0x00000000#32 : BitVec 32) = FKind.add.neutral .f32 hφ) (r : Fin 32) (c : Fin 2048) :
    multiReduction .add [1] S32x2048 src 0x00000000#32 h hφ hacc (ix2 r c) = ∑ k : Fin 49, src (ix3 r k c) := by
  refine (Ideal.multiReduction_add_single src 0x00000000#32 h hφ hacc (ix2 r c)).trans ?_
  exact Finset.sum_congr rfl fun k _ => congrArg src (Cert.SpatialMean.lift_middle h r c k)

/-- What the body stores at `(r, c)`: the block's 49-term sum at `(r, ·, c)` over the word of `49.0`. -/
theorem payload_apply (v : Vec Ideal S32x49x2048 .f32) (r : Fin 32) (c : Fin 2048) :
    k0_pay1 (F := Ideal) v (ix2 r c)
      = Ideal.div (∑ k : Fin 49, v (ix3 r k c)) (Ideal.ofBits .f32 0x42440000#32) := by
  unfold k0_pay1
  show Ideal.div (multiReduction (F := Ideal) .add [1] S32x2048 (shapeCast S32x49x2048 v shapeCasts_S32x49x2048_S32x49x2048)
      0x00000000#32 reduces_S32x49x2048_S32x2048 (.inl rfl) rfl (ix2 r c)) (Ideal.ofBits .f32 0x42440000#32) = _
  refine congrArg (fun z => Ideal.div z _) ?_
  rw [shapeCast_self]
  exact middle_sum_apply v _ _ _ r c

end Cert.PoolLinear.PoolBody

end
-- ==== Proof.PoolRegion.lean ====
/-
  The pooling region: what its output array holds when the region ends.

  The region runs the pooling body at 16 grid points; point `t` reads rows `32·t … 32·t + 31` of the
  flattened input `[512, 49, 2048]` (all 49 positions, all 2048 channels) and writes the same rows of the
  output `[512, 2048]`. Every block is therefore a block of ONE whole-array function of the input the region
  finds, `pooled`: the 49-term sum over the middle axis divided by the word of `49.0`; the 16 blocks tile the
  output's rows, so the output ends holding `pooled` of the input. Stated for any contents `V` at the
  region's entry.
-/
import proofs.«141241_j33921651704511_2_alg».proof.Proof.Gen.KernelIdeal.Frame
import proofs.«141241_j33921651704511_2_alg».proof.Proof.PoolBody
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.PoolLinear.PoolRegion

open Cert.KernelIdeal Cert.KernelIdeal.Gen

variable (V : (c : Dev nD) → (b : Ref sig .tc) → Buf (Elt Ideal) ((c : Thread nD τ).loc b))

/-- The mean over the middle axis of a `[512, 49, 2048]` array, entry by entry. -/
def pooled (x2 : S512x49x2048.Idx → EReal) : S512x2048.Idx → EReal :=
  fun i => Ideal.div (∑ k : Fin 49, x2 (ix3 (i 0) k (i 1))) (Ideal.ofBits .f32 0x42440000#32)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 16 points: the input block sits at the output block's rows and at
    position 0 on the other two axes; the output block at column block 0. -/
theorem block_indices : ∀ t : Fin cfg0.N,
    win0_0.index t (0 : Fin 3) = win0_1.index t (0 : Fin 2) ∧ win0_0.index t (1 : Fin 3) = 0
    ∧ win0_0.index t (2 : Fin 3) = 0 ∧ win0_1.index t (1 : Fin 2) = 0 :=
  (by decide +kernel : ∀ t : Fin grid0.N, _)

/-- Every one of the 16 row blocks of the output is some point's. -/
theorem block_onto : ∀ q : Fin 16, ∃ t : Fin cfg0.N, win0_1.index t = ![q.val, 0] :=
  (by decide +kernel : ∀ q : Fin 16, ∃ t : Fin grid0.N, win0_1.index t = ![q.val, 0])

/-- The input block at point `t`, at `(r, k, q)`, is the input array at the output block's row for `r`,
    position `k`, and the output block's column for `q`. -/
theorem in_block_apply (c : Dev nD) (t : Fin cfg0.N) (r : Fin 32) (k : Fin 49) (q : Fin 2048) :
    iblk0 V c 0 t (ix3 r k q)
      = V c main_v0 (ix3 (((cfg0.win 1).blk t).view.emb (ix2 r q) 0) k (((cfg0.win 1).blk t).view.emb (ix2 r q) 1)) := by
  obtain ⟨e0, e1, e2, e3⟩ := block_indices t
  show V c main_v0 (((cfg0.win 0).blk t).view.emb (ix3 r k q)) = _
  refine congrArg (V c main_v0) ?_
  funext a; apply Fin.ext
  match a with
  | ⟨0, _⟩ => show win0_0.index t (0 : Fin 3) * 32 + 1 * r.val = win0_1.index t (0 : Fin 2) * 32 + 1 * r.val; omega
  | ⟨1, _⟩ => show win0_0.index t (1 : Fin 3) * 49 + 1 * k.val = k.val; omega
  | ⟨2, _⟩ => show win0_0.index t (2 : Fin 3) * 2048 + 1 * q.val = win0_1.index t (1 : Fin 2) * 2048 + 1 * q.val; omega

/-- What the body leaves at entry `j` of the output block at point `t` is `pooled` of the input array at the
    array index under `j`. -/
theorem out_entry (c : Dev nD) (t : Fin cfg0.N) (j : S32x2048.Idx) :
    k0_pay1 (F := Ideal) (iblk0 V c 0 t) j = pooled (V c main_v0) (((cfg0.win 1).blk t).view.emb j) := by
  obtain ⟨r, q, rfl⟩ : ∃ (r : Fin 32) (q : Fin 2048), j = ix2 r q := ⟨j 0, j 1, eq_ix2 j⟩
  refine (Cert.PoolLinear.PoolBody.payload_apply (iblk0 V c 0 t) r q).trans ?_
  unfold pooled
  exact congrArg (fun z => Ideal.div z _) (Finset.sum_congr rfl fun k _ => in_block_apply V c t r k q)

/-- What point `t` writes back is block `t` of `pooled` of the input array as the region finds it. -/
theorem flushed_eq (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero zeros2]
  simp only [View.ld_unit_zero (S := S32x49x2048) zeros3]
  funext j
  exact out_entry V c t j

/-- An index of the output array is in point `t`'s block iff each coordinate is in the block's range. -/
theorem mem_blk (t : Fin cfg0.N) (i : S512x2048.Idx) :
    i ∈ ((cfg0.win 1).blk t).view.set ↔ ∀ a : Fin 2, win0_1.index t a * S32x2048.size a ≤ (i a).val
      ∧ (i a).val < win0_1.index t a * S32x2048.size a + S32x2048.size a := by
  show i ∈ ((View.whole main_v1).slice (win0_1.rect t)).set ↔ _
  rw [View.set_slice_whole, Rect.mem_set_unit]
  exact Iff.rfl

/-- The 16 blocks cover the output: row `n` is in block `n / 32`. -/
theorem covered (i : S512x2048.Idx) :
    ∃ t : Fin cfg0.N, (cfg0.win 1).flush t = true ∧ i ∈ ((cfg0.win 1).blk t).view.set := by
  have hi0 : (i 0).val < 512 := (i 0).isLt
  have hi1 : (i 1).val < 2048 := (i 1).isLt
  obtain ⟨t, ht⟩ := block_onto ⟨(i 0).val / 32, by omega⟩
  have q0 : win0_1.index t (0 : Fin 2) = (i 0).val / 32 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 2048 ≤ (i 1).val ∧ (i 1).val < win0_1.index t (1 : Fin 2) * 2048 + 2048; omega

/-- When the region ends its output array holds `pooled` of the input array it found at entry. -/
theorem final (c : Dev nD) : (dat0 V c).arrAt 1 cfg0.N = pooled (V c main_v0) :=
  (dat0 V c).arrAt_eq_of_cover 1 (pooled (V c main_v0)) (fun t _ => flushed_eq V c t) covered

end Cert.PoolLinear.PoolRegion

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.MatmulBody.lean ====
/-
  The matrix-product kernel's body at one entry.

  From loaded blocks `p : [256, 2048]`, `w : [2048, 2048]` and a bias row `b : [1, 2048]` the body stores, at
  `(r, q)`, the sum over `k` of `p (r, k) · w (k, q)` — a product accumulated into the zero matrix — plus
  `b (0, q)`, the row repeated down the 256 rows.
-/
import proofs.«141241_j33921651704511_2_alg».proof.Proof.Gen.KernelIdeal.Skeleton
import proofs.«141241_j33921651704511_2_alg».proof.Proof.LibPlainMatmul
import proofs.«141241_j33921651704511_2_alg».proof.Proof.LibRows
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.PoolLinear.MatmulBody

open Cert.KernelIdeal Cert.KernelIdeal.Gen

/-- What the body stores at `(r, q)`: `Σ_k p (r, k) · w (k, q) + b (0, q)`. -/
theorem payload_apply (p : Vec Ideal S256x2048 .f32) (w : Vec Ideal S2048x2048 .f32) (b : Vec Ideal S1x2048 .f32)
    (r : Fin 256) (q : Fin 2048) :
    k1_pay1 (F := Ideal) p w b (ix2 r q) = (∑ k : Fin 2048, p (ix2 r k) * w (ix2 k q)) + b (ix2 0 q) := by
  unfold k1_pay1
  show FloatOps.matmul dot_S256x2048_S2048x2048_S256x2048_1_0_0_1_n_n (some .fp32)
        (shapeCast S256x2048 p shapeCasts_S256x2048_S256x2048) w (constant (F := Ideal) S256x2048 .f32 0x00000000#32) (ix2 r q)
      + broadcastTo S256x2048 (shapeCast S1x2048 b shapeCasts_S1x2048_S1x2048) broadcasts_S1x2048_S256x2048 (ix2 r q) = _
  rw [shapeCast_self, shapeCast_self]
  refine congrArg₂ (· + ·) ?_ ?_
  · exact Cert.LibPlainMatmul.matmul_zero_apply dot_S256x2048_S2048x2048_S256x2048_1_0_0_1_n_n rfl rfl rfl rfl rfl rfl
      (some .fp32) p w r q
  · exact Cert.Rows.bcast_row (by decide) b broadcasts_S1x2048_S256x2048 r q

end Cert.PoolLinear.MatmulBody

end
-- ==== Proof.MatmulRegion.lean ====
/-
  The matrix-product region: what its output array holds when the region ends.

  The region runs the matrix-product body at 8 grid points `(j, i)`, `j < 4` a block of 2048 output columns
  and `i < 2` a block of 256 output rows. The point reads rows `256·i …` of the pooled features (all 2048
  channels), columns `2048·j …` of the weight (all 2048 channels) and of the bias row, and writes block
  `(i, j)` of the output. Every written block is a block of ONE whole-array function of the three arrays the
  region finds, `linear`: `Σ_k p (n, k) · w (k, q) + b (0, q)`; the 8 blocks tile the output.
  Stated for any contents `V` at the region's entry.
-/
import proofs.«141241_j33921651704511_2_alg».proof.Proof.Gen.KernelIdeal.Frame
import proofs.«141241_j33921651704511_2_alg».proof.Proof.MatmulBody
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.PoolLinear.MatmulRegion

open Cert.KernelIdeal Cert.KernelIdeal.Gen

variable (V : (c : Dev nD) → (b : Ref sig .tc) → Buf (Elt Ideal) ((c : Thread nD τ).loc b))

/-- Features times weight plus the bias row, entry by entry. -/
def linear (p : S512x2048.Idx → EReal) (w : S2048x8192.Idx → EReal) (b : S1x8192.Idx → EReal) : S512x8192.Idx → EReal :=
  fun i => (∑ k : Fin 2048, p (ix2 (i 0) k) * w (ix2 k (i 1))) + b (ix2 0 (i 1))

theorem zeros2 : (![0, 0] : Fin 2 → Nat) = fun _ => 0 := funext fun a => by fin_cases a <;> rfl

/-- The printed index maps over the 8 points: the features' block sits at the output block's rows, the
    weight's and the bias row's at the output block's columns, each at position 0 on its other axis. -/
theorem block_indices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2) :=
  (by decide +kernel : ∀ t : Fin grid1.N, _)

/-- Every one of the `2 × 4` blocks of the output is some point's. -/
theorem block_onto : ∀ (q0 : Fin 2) (q1 : Fin 4), ∃ t : Fin cfg1.N, win1_3.index t = ![q0.val, q1.val] :=
  (by decide +kernel : ∀ (q0 : Fin 2) (q1 : Fin 4), ∃ t : Fin grid1.N, win1_3.index t = ![q0.val, q1.val])

/-- The features' block at point `t`, at `(r, k)`: the features at the output block's row for `r`, channel `k`. -/
theorem feat_block_apply (c : Dev nD) (t : Fin cfg1.N) (r : Fin 256) (k : Fin 2048) (q : Fin 2048) :
    iblk1 V c 0 t (ix2 r k) = V c main_v1 (ix2 (((cfg1.win 3).blk t).view.emb (ix2 r q) 0) k) := by
  obtain ⟨e0, e1, e2, e3, e4, e5⟩ := block_indices t
  show V c main_v1 (((cfg1.win 0).blk t).view.emb (ix2 r k)) = _
  refine congrArg (V c main_v1) ?_
  funext a; apply Fin.ext
  match a with
  | ⟨0, _⟩ => show win1_0.index t (0 : Fin 2) * 256 + 1 * r.val = win1_3.index t (0 : Fin 2) * 256 + 1 * r.val; omega
  | ⟨1, _⟩ => show win1_0.index t (1 : Fin 2) * 2048 + 1 * k.val = k.val; omega

/-- The weight's block at point `t`, at `(k, q)`: the weight at channel `k`, the output block's column for `q`. -/
theorem weight_block_apply (c : Dev nD) (t : Fin cfg1.N) (r : Fin 256) (k : Fin 2048) (q : Fin 2048) :
    iblk1 V c 1 t (ix2 k q) = V c main_arg1 (ix2 k (((cfg1.win 3).blk t).view.emb (ix2 r q) 1)) := by
  obtain ⟨e0, e1, e2, e3, e4, e5⟩ := block_indices t
  show V c main_arg1 (((cfg1.win 1).blk t).view.emb (ix2 k q)) = _
  refine congrArg (V c main_arg1) ?_
  funext a; apply Fin.ext
  match a with
  | ⟨0, _⟩ => show win1_1.index t (0 : Fin 2) * 2048 + 1 * k.val = k.val; omega
  | ⟨1, _⟩ => show win1_1.index t (1 : Fin 2) * 2048 + 1 * q.val = win1_3.index t (1 : Fin 2) * 2048 + 1 * q.val; omega

/-- The bias row's block at point `t`, at `(0, q)`: the bias row at the output block's column for `q`. -/
theorem bias_block_apply (c : Dev nD) (t : Fin cfg1.N) (r : Fin 256) (q : Fin 2048) :
    iblk1 V c 2 t (ix2 0 q) = V c main_v2 (ix2 0 (((cfg1.win 3).blk t).view.emb (ix2 r q) 1)) := by
  obtain ⟨e0, e1, e2, e3, e4, e5⟩ := block_indices t
  show V c main_v2 (((cfg1.win 2).blk t).view.emb (ix2 0 q)) = _
  refine congrArg (V c main_v2) ?_
  funext a; apply Fin.ext
  match a with
  | ⟨0, _⟩ => show win1_2.index t (0 : Fin 2) * 1 + 1 * 0 = 0; omega
  | ⟨1, _⟩ => show win1_2.index t (1 : Fin 2) * 2048 + 1 * q.val = win1_3.index t (1 : Fin 2) * 2048 + 1 * q.val; omega

/-- What the body leaves at entry `j` of the output block at point `t` is `linear` of the three arrays at
    the array index under `j`. -/
theorem out_entry (c : Dev nD) (t : Fin cfg1.N) (j : S256x2048.Idx) :
    k1_pay1 (F := Ideal) (iblk1 V c 0 t) (iblk1 V c 1 t) (iblk1 V c 2 t) j
      = linear (V c main_v1) (V c main_arg1) (V c main_v2) (((cfg1.win 3).blk t).view.emb j) := by
  obtain ⟨r, q, rfl⟩ : ∃ (r : Fin 256) (q : Fin 2048), j = ix2 r q := ⟨j 0, j 1, eq_ix2 j⟩
  refine (Cert.PoolLinear.MatmulBody.payload_apply (iblk1 V c 0 t) (iblk1 V c 1 t) (iblk1 V c 2 t) r q).trans ?_
  unfold linear
  refine congrArg₂ (· + ·) (Finset.sum_congr rfl fun k _ => ?_) (bias_block_apply V c t r q)
  exact congrArg₂ (· * ·) (feat_block_apply V c t r k q) (weight_block_apply V c t r k q)

/-- What point `t` writes back is block `t` of `linear` of the three arrays as the region finds them. -/
theorem flushed_eq (c : Dev nD) (t : Fin cfg1.N) :
    (dat1 V c).flushed 3 t
      = ((cfg1.win 3).blk t).view.read (Elt Ideal) (linear (V c main_v1) (V c main_arg1) (V c main_v2)) := by
  show (cfg1.win 3).cut (grid1.coords t) ((dat1 V c).after 3 t) = _
  rw [after1_3]
  unfold out1_3
  rw [View.canon_unit_zero zeros2]
  simp only [View.ld_unit_zero (S := S256x2048) zeros2, View.ld_unit_zero (S := S2048x2048) zeros2,
    View.ld_unit_zero (S := S1x2048) zeros2]
  funext j
  exact out_entry V c t j

/-- An index of the output array is in point `t`'s block iff each coordinate is in the block's range. -/
theorem mem_blk (t : Fin cfg1.N) (i : S512x8192.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v3).slice (win1_3.rect t)).set ↔ _
  rw [View.set_slice_whole, Rect.mem_set_unit]
  exact Iff.rfl

/-- The 8 blocks cover the output: entry `(n, k)` is in block `(n / 256, k / 2048)`. -/
theorem covered (i : S512x8192.Idx) :
    ∃ t : Fin cfg1.N, (cfg1.win 3).flush t = true ∧ i ∈ ((cfg1.win 3).blk t).view.set := by
  have hi0 : (i 0).val < 512 := (i 0).isLt
  have hi1 : (i 1).val < 8192 := (i 1).isLt
  obtain ⟨t, ht⟩ := block_onto ⟨(i 0).val / 256, by omega⟩ ⟨(i 1).val / 2048, by omega⟩
  have q0 : win1_3.index t (0 : Fin 2) = (i 0).val / 256 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- When the region ends its output array holds `linear` of the three arrays it found at entry. -/
theorem final (c : Dev nD) :
    (dat1 V c).arrAt 3 cfg1.N = linear (V c main_v1) (V c main_arg1) (V c main_v2) :=
  (dat1 V c).arrAt_eq_of_cover 3 (linear (V c main_v1) (V c main_arg1) (V c main_v2)) (fun t _ => flushed_eq V c t) covered

end Cert.PoolLinear.MatmulRegion

end
-- ==== Proof.KernelValue.lean ====
/-
  The idealized kernel's result, as one function of the three arguments.

  @main is four segments: the input is flattened `[512, 7, 7, 2048] → [512, 49, 2048]`; the pooling region
  writes the features `[512, 2048]`; the bias is recast as a row `[1, 8192]`; the matrix-product region writes
  the result `[512, 8192]`. Reading the contents at each boundary: the pooling region finds the flattened
  input and leaves `pooled` of it; the second region finds those features (the recast of the bias does not
  touch them), the weight as launched, and the bias row, and leaves `linear` of the three. Entry by entry
  that composite is `poolLinear` of the arguments: position `p` of the flattened axis is the spatial position
  `(p / 7, p % 7)`, and entry `(0, k)` of the bias row is entry `k` of the bias.
-/
import proofs.«141241_j33921651704511_2_alg».proof.Proof.PoolRegion
import proofs.«141241_j33921651704511_2_alg».proof.Proof.MatmulRegion
import proofs.«141241_j33921651704511_2_alg».proof.Proof.Spec
import Idealize.ShloMosaic.Lib.StableHlo.Run

noncomputable section

open Idealize.ShloMosaic Idealize.ShloMosaic.TcCoe Idealize.ShloMosaic.ValueIdx Idealize.SL.Sem
open Idealize.ShloMosaic.StableHlo

namespace Cert.PoolLinear.KernelValue

open Cert.KernelIdeal Cert.KernelIdeal.Gen

variable (m : (ℓ : Loc nD τ sig) → Buf (Elt Ideal) ℓ) (ρ : Dev nD → PrngReg)

/-- The pooling region finds the input flattened. -/
theorem entry0_input (c : Dev nD) :
    V1 m ρ c main_v0
      = shapeCast S512x49x2048 (m ((c : Thread nD τ).loc main_arg0)) shapeCasts_S512x7x7x2048_S512x49x2048 := by
  show StableHlo.after hostOps0 (W0 m ρ c) (Proc.devRef .tc main_v0) = _
  after_results
  rfl

/-- The matrix-product region finds, as features, what the pooling region left. -/
theorem entry1_features (c : Dev nD) :
    V3 m ρ c main_v1 = Cert.PoolLinear.PoolRegion.pooled (V1 m ρ c main_v0) := by
  have h : W3 m ρ c (Proc.devRef .tc main_v1) = W2 m ρ c (Proc.devRef .tc main_v1) := by
    show StableHlo.after hostOps1 (W2 m ρ c) (Proc.devRef .tc main_v1) = _
    after_results
  exact h.trans ((W2_arr m ρ c 1).trans (Cert.PoolLinear.PoolRegion.final (V1 m ρ) c))

/-- It finds the weight as launched. -/
theorem entry1_weight (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans
    (W4_main_arg1 m ρ c)

/-- The bias is as launched when the pooling region ends. -/
theorem bias_kept (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-- It finds the bias recast as a row. -/
theorem entry1_bias (c : Dev nD) :
    V3 m ρ c main_v2 = shapeCast S1x8192 (m ((c : Thread nD τ).loc main_arg2)) shapeCasts_S8192_S1x8192 := by
  show StableHlo.after hostOps1 (W2 m ρ c) (Proc.devRef .tc main_v2) = _
  after_results
  rw [bias_kept]
  rfl

/-- Pooling the flattened input and applying the linear layer with the bias row is `poolLinear`. -/
theorem composite_eq (x : S512x7x7x2048.Idx → EReal) (w : S2048x8192.Idx → EReal) (b : S8192.Idx → EReal) :
    Cert.PoolLinear.MatmulRegion.linear
        (Cert.PoolLinear.PoolRegion.pooled (shapeCast S512x49x2048 x shapeCasts_S512x7x7x2048_S512x49x2048)) w
        (shapeCast S1x8192 b shapeCasts_S8192_S1x8192)
      = Cert.PoolLinear.poolLinear x w b := by
  funext i
  obtain ⟨n, k, rfl⟩ : ∃ (n : Fin 512) (k : Fin 8192), i = ix2 n k := ⟨i 0, i 1, eq_ix2 i⟩
  rw [Cert.PoolLinear.poolLinear_apply]
  unfold Cert.PoolLinear.MatmulRegion.linear
  refine congrArg₂ (· + ·) (Finset.sum_congr rfl fun c _ => ?_) ?_
  · refine congrArg (· * w (ix2 c k)) ?_
    unfold Cert.PoolLinear.PoolRegion.pooled Cert.PoolLinear.spatialMean
    refine congrArg (fun z => Ideal.div z _) (Finset.sum_congr rfl fun p _ => ?_)
    exact Cert.SpatialMean.flatten_apply (b := 7) (c := 7) x shapeCasts_S512x7x7x2048_S512x49x2048 n p c
  · exact Cert.SpatialMean.cast_row b shapeCasts_S8192_S1x8192 k

/-- The result array when @main ends: `poolLinear` of the three arguments as launched. -/
theorem result_eq (c : Dev nD) :
    W4 m ρ c (Proc.devRef .tc main_v3)
      = Cert.PoolLinear.poolLinear (m ((c : Thread nD τ).loc main_arg0)) (m ((c : Thread nD τ).loc main_arg1))
          (m ((c : Thread nD τ).loc main_arg2)) := by
  refine (W4_arr m ρ c 3).trans ((Cert.PoolLinear.MatmulRegion.final (V3 m ρ) c).trans ?_)
  rw [entry1_features, entry1_weight, entry1_bias, entry0_input]
  exact composite_eq _ _ _

end Cert.PoolLinear.KernelValue

end
-- ==== Proof.KernelRun.lean ====
/-
  The idealized kernel's run, with its result array named.

  Every weakly fair execution of @main from a memory with zero counters terminates, and in the final state
  every unscoped buffer holds the contents of the last segment boundary (the fold of the four segments from
  the launch memory). Any property of final memories that follows from those contents therefore holds of
  every execution; in particular the result array is `poolLinear` of the arguments, which end as launched.
-/
import proofs.«141241_j33921651704511_2_alg».proof.Proof.Gen.KernelIdeal.Frame
import proofs.«141241_j33921651704511_2_alg».proof.Proof.KernelValue

noncomputable section

namespace Cert.PoolLinear.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever follows from "every unscoped buffer of every core holds the last boundary's contents" holds of every
    final state of every weakly fair execution of @main. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

end Launch

variable (m : (ℓ : Loc nD τ sig) → Buf (Elt Ideal) ℓ) (ρ : Dev nD → PrngReg)

/-- At the extended reals, every weakly fair execution of @main terminates with the result array at
    `poolLinear` of the arguments as launched, and the arguments unchanged. -/
theorem run : θ_run defs (onTc (τ := τ) (main (F := Ideal))) ⟨m, fun _ => 0, ρ⟩ (fun r => ∀ c : Dev nD,
      r.2.mem ((c.tc : Thread nD τ).loc main_v3)
        = Cert.PoolLinear.poolLinear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_final m ρ (fun s h c =>
    ⟨(h c _ (mem_uc main_v3 (by decide))).trans (Cert.PoolLinear.KernelValue.result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩)

end Cert.PoolLinear.KernelRun

end
-- ==== Proof.lean ====
/-
  Global average pooling followed by a linear layer, as two pipelined kernels, against `mean` and `einsum`.

  The kernel flattens the input `x : [512, 7, 7, 2048]` to `[512, 49, 2048]`, averages the 49 positions in
  blocks of 32 rows (a sum over the middle axis divided by `49.0`), recasts the bias as a row, and forms
  `features · weight + bias` in blocks of `256 × 2048` (a matrix product into a zero accumulator plus the row
  repeated). The reference sums `x` over its two spatial axes, divides by `49.0`, contracts with the weight and
  adds the bias repeated down the rows. Over the extended reals both are

      y (n, k) = Σ_c ((Σ_{p < 49} x (n, p / 7, p % 7, c)) / 49) · w (c, k) + b (k):

  the two differ only in how the 49 spatial terms are enumerated (one flattened axis against the pairs
  `(h, w)`, joined by `p = 7·h + w`) and in a zero the reference's sum starts from; a finite sum in a
  commutative monoid does not depend on the enumeration, so no finiteness of the inputs is used. The divisor
  is the same f32 word on both sides and is never evaluated.

  The idealization rewrote nothing, so the kernel is its own idealization (`preserves` is `True`).
-/
import proofs.«141241_j33921651704511_2_alg».proof.Defs
import proofs.«141241_j33921651704511_2_alg».proof.Proof.Gen.Kernel
import proofs.«141241_j33921651704511_2_alg».proof.Proof.Gen.Kernel.Skeleton
import proofs.«141241_j33921651704511_2_alg».proof.Proof.Gen.Kernel.Launch
import proofs.«141241_j33921651704511_2_alg».proof.Proof.Gen.Kernel.Points
import proofs.«141241_j33921651704511_2_alg».proof.Proof.Gen.Kernel.Frame
import proofs.«141241_j33921651704511_2_alg».proof.Proof.Gen.KernelIdeal
import proofs.«141241_j33921651704511_2_alg».proof.Proof.Gen.KernelIdeal.Skeleton
import proofs.«141241_j33921651704511_2_alg».proof.Proof.Gen.KernelIdeal.Launch
import proofs.«141241_j33921651704511_2_alg».proof.Proof.Gen.KernelIdeal.Points
import proofs.«141241_j33921651704511_2_alg».proof.Proof.Gen.KernelIdeal.Frame
import proofs.«141241_j33921651704511_2_alg».proof.Proof.Gen.ReferenceIdeal
import proofs.«141241_j33921651704511_2_alg».proof.Proof.Gen.ReferenceIdeal.Run
import proofs.«141241_j33921651704511_2_alg».proof.Proof.Gen.ReferenceIdeal.Read
import proofs.«141241_j33921651704511_2_alg».proof.Proof.Gen.Pre_finite_inputs
import proofs.«141241_j33921651704511_2_alg».proof.Proof.Reference
import proofs.«141241_j33921651704511_2_alg».proof.Proof.KernelRun
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the three arguments, both programs end with the result
    `poolLinear` of those arguments. -/
theorem algebraic : Cert.algebraic_KernelIdeal_ReferenceIdeal := by
  intro m ρ m' ρ' _ hagree
  refine ⟨fun c => Cert.PoolLinear.poolLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.PoolLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.PoolLinear.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
